-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S4x8x256 : Shape := ⟨3, ![4, 8, 256]⟩
abbrev S8x4x256 : Shape := ⟨3, ![8, 4, 256]⟩
abbrev S512x2048 : Shape := ⟨2, ![512, 2048]⟩
abbrev S512x256 : Shape := ⟨2, ![512, 256]⟩
abbrev S4x256x2048 : Shape := ⟨3, ![4, 256, 2048]⟩
abbrev S1024 : Shape := ⟨1, ![1024]⟩
abbrev S1024x2048 : Shape := ⟨2, ![1024, 2048]⟩
abbrev S512x1024 : Shape := ⟨2, ![512, 1024]⟩
abbrev S1x1024 : Shape := ⟨2, ![1, 1024]⟩

abbrev nBuf : Space → Nat
  | .hbm => 20
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x2048, .bf16⟩
  | .hbm, ⟨8, _⟩ => ⟨S4096x2048, .bf16⟩
  | .hbm, ⟨9, _⟩ => ⟨S8192x2048, .bf16⟩
  | .hbm, ⟨10, _⟩ => ⟨S4x2048x2048, .bf16⟩
  | .hbm, ⟨11, _⟩ => ⟨S8192x2048, .bf16⟩
  | .hbm, ⟨12, _⟩ => ⟨S4x2048x2048, .bf16⟩
  | .hbm, ⟨13, _⟩ => ⟨S8192, .f32⟩
  | .hbm, ⟨14, _⟩ => ⟨S4x2048, .f32⟩
  | .hbm, ⟨15, _⟩ => ⟨S4x8x256, .f32⟩
  | .hbm, ⟨16, _⟩ => ⟨S8x4x256, .f32⟩
  | .hbm, ⟨17, _⟩ => ⟨S8192, .f32⟩
  | .hbm, ⟨18, _⟩ => ⟨S4096x2048, .f32⟩
  | .hbm, ⟨19, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S4x256x2048, .bf16⟩
  | .local _ .vmem, ⟨7, _⟩ => ⟨S4x256x2048, .bf16⟩
  | .local _ .vmem, ⟨8, _⟩ => ⟨S4x256x2048, .bf16⟩
  | .local _ .vmem, ⟨9, _⟩ => ⟨S4x256x2048, .bf16⟩
  | .local _ .vmem, ⟨10, _⟩ => ⟨S1024, .f32⟩
  | .local _ .vmem, ⟨11, _⟩ => ⟨S1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  shapeCasts_S4x2048_S4x8x256 : S4x2048.ShapeCasts S4x8x256
  transposes_S4x8x256_S8x4x256_1_0_2 : S4x8x256.Transposes [1, 0, 2] S8x4x256
  shapeCasts_S8x4x256_S8192 : S8x4x256.ShapeCasts S8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S4x256x2048 : S4x256x2048.ShapeCasts S4x256x2048
  shapeCasts_S4x256x2048_S1024x2048 : S4x256x2048.ShapeCasts S1024x2048
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .bf16 = 32 ∨ (Rect.block (s := S4x2048x2048) S4x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .bf16 = 32 ∨ (Rect.block (s := S4x2048x2048) S4x256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S8192.size a
  hwx0_5 : ∀ i : grid0.Coords, EltTy.bits .f32 = 32 ∨ (Rect.block (s := S8192) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4096x8192, .f32⟩
  | .hbm, ⟨8, _⟩ => ⟨S1x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S8192x2048_S4096x8192_1_1_0_0_n_n_wf : DotDims.WF S4096x2048 S8192x2048 S4096x8192 [1] [1] [0] [0] [] []

variable [Facts₀]

def dot_S4096x2048_S8192x2048_S4096x8192_1_1_0_0_n_n : DotDims S4096x2048 S8192x2048 S4096x8192 where
  lhsContracting := [1]
  rhsContracting := [1]
  lhsNonContracting := [0]
  rhsNonContracting := [0]
  lhsBatch := []
  rhsBatch := []
  wf := dot_S4096x2048_S8192x2048_S4096x8192_1_1_0_0_n_n_wf

class Facts : Prop extends Facts₀ where

variable [Facts]
-- ==== Proof.Spec.lean ====
/-
  The LSTM cell, entry by entry, as one function of its seven arguments over the extended reals.

  The four gates' weights are stacked: row `g * 2048 + h` of `Wx` and `Wh` (and entry `g * 2048 + h` of the two
  biases) belongs to gate `g` of hidden unit `h`.  Gate `g`'s pre-activation at batch row `b` and hidden unit `h` is

    x[b, :] · Wx[g * 2048 + h, :]  +  hx[b, :] · Wh[g * 2048 + h, :]  +  bx[g * 2048 + h]  +  bh[g * 2048 + h],

  the new cell state is  σ(gate 1) · cx + σ(gate 0) · tanh(gate 2)  and the new hidden state is
  σ(gate 3) · tanh(new cell state), with σ the logistic function.

  The only algebra between the two programs is the ORDER in which the four terms of a pre-activation are added:
  one program adds the two products first and the two biases first, the other adds product, bias, product, bias
  from left to right.  Addition of extended reals is commutative and associative (also at the infinities), so the
  two orders agree for every input; no finiteness is needed.
-/
import Idealize.ShloMosaic.PureOps.Ideal
import Idealize.ShloMosaic.Lib.ValueIdx

noncomputable section

namespace Cert.Lstm

open Idealize.ShloMosaic Idealize.ShloMosaic.ValueIdx

/-- Activations and states: 4096 batch rows of 2048 features. -/
abbrev Sact : Shape := ⟨2, ![4096, 2048]⟩
/-- Stacked weights: 4 × 2048 rows of 2048 features. -/
abbrev Swt : Shape := ⟨2, ![8192, 2048]⟩
/-- Stacked biases. -/
abbrev Sbias : Shape := ⟨1, ![8192]⟩

/-- Gate `g`'s row for hidden unit `h` in the stacked weights and biases. -/
def gateRow (g : Fin 4) (h : Fin 2048) : Fin 8192 :=
  ⟨g.val * 2048 + h.val, by have hg := g.isLt; have hh := h.isLt; omega⟩

theorem gateRow_val (g : Fin 4) (h : Fin 2048) : (gateRow g h).val = g.val * 2048 + h.val := rfl

/-- Row `b` of `a` against row `r` of `W`. -/
def rowDot (a : Sact.Idx → EReal) (W : Swt.Idx → EReal) (b : Fin 4096) (r : Fin 8192) : EReal :=
  ∑ k : Fin 2048, a (ix2 b k) * W (ix2 r k)

variable (x hx cx : Sact.Idx → EReal) (Wx : Swt.Idx → EReal) (bx : Sbias.Idx → EReal) (Wh : Swt.Idx → EReal)
  (bh : Sbias.Idx → EReal)

/-- A pre-activation at batch row `b` and stacked row `r`: the two products, then the two biases. -/
def preAt (b : Fin 4096) (r : Fin 8192) : EReal :=
  (rowDot x Wx b r + rowDot hx Wh b r) + (bx (ix1 r) + bh (ix1 r))

/-- The same four terms added from left to right as product, bias, product, bias. -/
theorem preAt_left_to_right (b : Fin 4096) (r : Fin 8192) :
    ((rowDot x Wx b r + bx (ix1 r)) + rowDot hx Wh b r) + bh (ix1 r) = preAt x hx Wx bx Wh bh b r := by
  unfold preAt
  rw [add_assoc, add_add_add_comm]

/-- The new cell state at batch row `b`, hidden unit `h`. -/
def cellAt (b : Fin 4096) (h : Fin 2048) : EReal :=
  Ideal.logistic (preAt x hx Wx bx Wh bh b (gateRow 1 h)) * cx (ix2 b h)
    + Ideal.logistic (preAt x hx Wx bx Wh bh b (gateRow 0 h)) * Ideal.tanh (preAt x hx Wx bx Wh bh b (gateRow 2 h))

/-- The new hidden state there. -/
def hiddenAt (b : Fin 4096) (h : Fin 2048) : EReal :=
  Ideal.logistic (preAt x hx Wx bx Wh bh b (gateRow 3 h)) * Ideal.tanh (cellAt x hx cx Wx bx Wh bh b h)

/-- The new cell state as an array. -/
def cell : Sact.Idx → EReal := fun i => cellAt x hx cx Wx bx Wh bh (i 0) (i 1)

/-- The new hidden state as an array. -/
def hidden : Sact.Idx → EReal := fun i => hiddenAt x hx cx Wx bx Wh bh (i 0) (i 1)

/-- The float pattern of `1.0` denotes the real number one. -/
theorem ofBits_one : Ideal.ofBits .f32 0x3F800000#32 = 1 := by
  simp [Ideal.ofBits, Ideal.ieee, -EReal.coe_mul]; norm_num

/-- The logistic function spelt out as `1 / (1 + exp (-y))` with the literal `1.0` is the logistic function. -/
theorem logistic_spelt (y : EReal) :
    Ideal.div (Ideal.ofBits .f32 0x3F800000#32) (Ideal.ofBits .f32 0x3F800000#32 + Ideal.exp (-y)) = Ideal.logistic y := by
  rw [ofBits_one]; rfl

end Cert.Lstm

end
-- ==== Proof.RefValue.lean ====
/-
  The reference computes the LSTM cell of `Spec.lean`.

  Its program forms the whole 4096 × 8192 array of pre-activations as
  (x · Wxᵀ + bx) + hx · Whᵀ + bh, cuts it into the four gates' 4096 × 2048 slices (columns `g * 2048 + h`), applies
  1 / (1 + exp (-·)) to gates 0, 1, 3 and tanh to gate 2, and combines them.  Read at an entry, each product is a sum
  over the 2048 features, each slice shifts the column by `g * 2048`, the spelt-out quotient is the logistic
  function, and the left-to-right sum of the four terms is the specification's sum (commutativity and associativity).
-/
import proofs.«145008_j2250562863750_2_alg».proof.Proof.Gen.ReferenceIdeal.Read
import proofs.«145008_j2250562863750_2_alg».proof.Proof.Spec

noncomputable section

namespace Cert.ReferenceIdeal.RefValue

open Cert.ReferenceIdeal Cert.ReferenceIdeal.Read Idealize.ShloMosaic Idealize.ShloMosaic.ValueIdx Cert.Lstm

variable (x0 x1 x2 : (⟨S4096x2048, .f32⟩ : BufTy).Contents (Elt Ideal)) (x3 : (⟨S8192x2048, .f32⟩ : BufTy).Contents (Elt Ideal))
  (x4 : (⟨S8192, .f32⟩ : BufTy).Contents (Elt Ideal)) (x5 : (⟨S8192x2048, .f32⟩ : BufTy).Contents (Elt Ideal))
  (x6 : (⟨S8192, .f32⟩ : BufTy).Contents (Elt Ideal))

/-! ## The operand entries a pre-activation reads -/

theorem lhs_x (j : S4096x8192.Idx) (k : Fin 2048) : lidx_main_v0 j k = ix2 (j 0) k :=
  funext fun a => Fin.ext (by match a with | ⟨0, _⟩ => rfl | ⟨1, _⟩ => rfl)

theorem rhs_Wx (j : S4096x8192.Idx) (k : Fin 2048) : ridx_main_v0 j k = ix2 (j 1) k :=
  funext fun a => Fin.ext (by match a with | ⟨0, _⟩ => rfl | ⟨1, _⟩ => rfl)

theorem lhs_hx (j : S4096x8192.Idx) (k : Fin 2048) : lidx_main_v4 j k = ix2 (j 0) k :=
  funext fun a => Fin.ext (by match a with | ⟨0, _⟩ => rfl | ⟨1, _⟩ => rfl)

theorem rhs_Wh (j : S4096x8192.Idx) (k : Fin 2048) : ridx_main_v4 j k = ix2 (j 1) k :=
  funext fun a => Fin.ext (by match a with | ⟨0, _⟩ => rfl | ⟨1, _⟩ => rfl)

theorem at_bx (j : S4096x8192.Idx) : idx_main_v1 (idx_main_v2 j) = ix1 (j 1) :=
  funext fun a => Fin.ext (by match a with | ⟨0, _⟩ => rfl)

theorem at_bh (j : S4096x8192.Idx) : idx_main_v6 (idx_main_v7 j) = ix1 (j 1) :=
  funext fun a => Fin.ext (by match a with | ⟨0, _⟩ => rfl)

/-! ## The array of pre-activations -/

/-- Entry (b, r) of the reference's pre-activations is the specification's, the four terms regrouped. -/
theorem pre_entry (j : S4096x8192.Idx) :
    val_main_v8 (F := Ideal) x0 x1 x3 x4 x5 x6 j = preAt x0 x1 x3 x4 x5 x6 (j 0) (j 1) := by
  rw [val_main_v8_apply, val_main_v5_apply, val_main_v3_apply, val_main_v0_apply, val_main_v4_apply, val_main_v2_apply,
    val_main_v1_apply, val_main_v7_apply, val_main_v6_apply]
  simp only [lhs_x, rhs_Wx, lhs_hx, rhs_Wh, at_bx, at_bh]
  exact preAt_left_to_right x0 x1 x3 x4 x5 x6 (j 0) (j 1)

/-! ## The four slices -/

theorem gate0_entry (b : Fin 4096) (h : Fin 2048) :
    val_main_v9 (F := Ideal) x0 x1 x3 x4 x5 x6 (ix2 b h) = preAt x0 x1 x3 x4 x5 x6 b (gateRow 0 h) := by
  rw [val_main_v9_apply, pre_entry]
  have e1 : idx_main_v9 (ix2 b h) 1 = gateRow 0 h := Fin.ext (by show h.val = 0 * 2048 + h.val; omega)
  rw [e1]; rfl

theorem gate1_entry (b : Fin 4096) (h : Fin 2048) :
    val_main_v10 (F := Ideal) x0 x1 x3 x4 x5 x6 (ix2 b h) = preAt x0 x1 x3 x4 x5 x6 b (gateRow 1 h) := by
  rw [val_main_v10_apply, pre_entry]
  have e1 : idx_main_v10 (ix2 b h) 1 = gateRow 1 h := Fin.ext (by show 2048 + h.val = 1 * 2048 + h.val; omega)
  rw [e1]; rfl

theorem gate2_entry (b : Fin 4096) (h : Fin 2048) :
    val_main_v11 (F := Ideal) x0 x1 x3 x4 x5 x6 (ix2 b h) = preAt x0 x1 x3 x4 x5 x6 b (gateRow 2 h) := by
  rw [val_main_v11_apply, pre_entry]
  have e1 : idx_main_v11 (ix2 b h) 1 = gateRow 2 h := Fin.ext (by show 4096 + h.val = 2 * 2048 + h.val; omega)
  rw [e1]; rfl

theorem gate3_entry (b : Fin 4096) (h : Fin 2048) :
    val_main_v12 (F := Ideal) x0 x1 x3 x4 x5 x6 (ix2 b h) = preAt x0 x1 x3 x4 x5 x6 b (gateRow 3 h) := by
  rw [val_main_v12_apply, pre_entry]
  have e1 : idx_main_v12 (ix2 b h) 1 = gateRow 3 h := Fin.ext (by show 6144 + h.val = 3 * 2048 + h.val; omega)
  rw [e1]; rfl

/-! ## The three spelt-out logistic functions -/

theorem sigma0_entry (i : S4096x2048.Idx) :
    val_main_v18 (F := Ideal) x0 x1 x3 x4 x5 x6 i = Ideal.logistic (val_main_v9 (F := Ideal) x0 x1 x3 x4 x5 x6 i) := by
  rw [val_main_v18_apply, val_main_v17_apply, val_main_cst_0_apply, val_main_v16_apply, val_main_v15_apply,
    val_main_cst_apply, val_main_v14_apply, val_main_v13_apply]
  exact logistic_spelt _

theorem sigma1_entry (i : S4096x2048.Idx) :
    val_main_v24 (F := Ideal) x0 x1 x3 x4 x5 x6 i = Ideal.logistic (val_main_v10 (F := Ideal) x0 x1 x3 x4 x5 x6 i) := by
  rw [val_main_v24_apply, val_main_v23_apply, val_main_cst_2_apply, val_main_v22_apply, val_main_v21_apply,
    val_main_cst_1_apply, val_main_v20_apply, val_main_v19_apply]
  exact logistic_spelt _

theorem sigma3_entry (i : S4096x2048.Idx) :
    val_main_v31 (F := Ideal) x0 x1 x3 x4 x5 x6 i = Ideal.logistic (val_main_v12 (F := Ideal) x0 x1 x3 x4 x5 x6 i) := by
  rw [val_main_v31_apply, val_main_v30_apply, val_main_cst_4_apply, val_main_v29_apply, val_main_v28_apply,
    val_main_cst_3_apply, val_main_v27_apply, val_main_v26_apply]
  exact logistic_spelt _

/-! ## The two results -/

theorem cell_entry (b : Fin 4096) (h : Fin 2048) :
    val_main_v34 (F := Ideal) x0 x1 x2 x3 x4 x5 x6 (ix2 b h) = cellAt x0 x1 x2 x3 x4 x5 x6 b h := by
  rw [val_main_v34_apply, val_main_v32_apply, val_main_v33_apply, sigma1_entry, sigma0_entry, val_main_v25_apply,
    gate1_entry, gate0_entry, gate2_entry]
  rfl

theorem hidden_entry (b : Fin 4096) (h : Fin 2048) :
    val_main_v36 (F := Ideal) x0 x1 x2 x3 x4 x5 x6 (ix2 b h) = hiddenAt x0 x1 x2 x3 x4 x5 x6 b h := by
  rw [val_main_v36_apply, val_main_v35_apply, sigma3_entry, gate3_entry, cell_entry]
  rfl

/-- The reference's second result is the specification's new cell state. -/
theorem cell_eq : val_main_v34 (F := Ideal) x0 x1 x2 x3 x4 x5 x6 = cell x0 x1 x2 x3 x4 x5 x6 := by
  funext i
  obtain ⟨b, h, rfl⟩ : ∃ (b : Fin 4096) (h : Fin 2048), i = ix2 b h := ⟨i 0, i 1, eq_ix2 i⟩
  exact cell_entry x0 x1 x2 x3 x4 x5 x6 b h

/-- The reference's first result is the specification's new hidden state. -/
theorem hidden_eq : val_main_v36 (F := Ideal) x0 x1 x2 x3 x4 x5 x6 = hidden x0 x1 x2 x3 x4 x5 x6 := by
  funext i
  obtain ⟨b, h, rfl⟩ : ∃ (b : Fin 4096) (h : Fin 2048), i = ix2 b h := ⟨i 0, i 1, eq_ix2 i⟩
  exact hidden_entry x0 x1 x2 x3 x4 x5 x6 b h

end Cert.ReferenceIdeal.RefValue

end
-- ==== Proof.KernelBlock.lean ====
/-
  One grid point of the kernel, entry by entry.

  At a grid point the kernel holds a 512-row block of `x` and of `hx`, the 4 × 256 rows of `Wx` and of `Wh` that belong
  to its 256 hidden units (one group of 256 rows per gate), the matching 4 × 256 bias sums, and a 512 × 256 block of
  `cx`.  It merges the gate axis into the row axis (row `g * 256 + q` of the merged 1024 × 2048 operand is row `q` of
  gate `g`), forms the two 512 × 1024 products into zero accumulators, adds them and the bias row, and reads the four
  gates back as the column ranges `g * 256 + q`.  Read at an entry, a product is a sum over the 2048 features, so
  column `g * 256 + q` of row `p` is gate `g`'s pre-activation for the block's row `p` and hidden unit `q`; if the blocks
  are the corresponding entries of the seven arguments, this is the specification's pre-activation, and the block of
  results is the block of the specification's new cell and hidden states.
-/
import proofs.«145008_j2250562863750_2_alg».proof.Proof.Gen.KernelIdeal.Value
import proofs.«145008_j2250562863750_2_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Lstm

/-- Row `g * 256 + q` of the merged operand: gate `g`, hidden unit `q` of the tile. -/
def tileRow (g : Fin 4) (q : Fin 256) : Fin 1024 :=
  ⟨g.val * 256 + q.val, by have hg := g.isLt; have hq := q.isLt; omega⟩

/-! ## The layout operations read at an entry -/

/-- Merging the gate axis into the row axis: entry (g * 256 + q, k) of the merged operand is entry (g, q, k). -/
theorem merged_entry (P : S4x256x2048.Idx → EReal)
    (h2 : S4x256x2048.ShapeCasts S1024x2048) (g : Fin 4) (q : Fin 256) (k : Fin 2048) :
    shapeCast S1024x2048 P h2 (ix2 (tileRow g q) k) = P (ix3 g q k) := by
  refine shapeCast_apply P h2 (ix2 (tileRow g q) k) (ix3 g q k) ?_
  rw [Shape.rowMajor_val_three, Shape.rowMajor_val_two]
  rfl

/-- The bias row broadcast down the 512 rows: entry (p, n) is bias entry n. -/
theorem bias_entry (P4 : S1024.Idx → EReal) (h2 : S1024.ShapeCasts S1x1024)
    (h3 : S1x1024.Broadcasts S512x1024) (p : Fin 512) (n : Fin 1024) :
    broadcastTo S512x1024 (shapeCast S1x1024 P4 h2) h3 (ix2 p n) = P4 (ix1 n) := by
  rw [broadcastTo_apply _ h3 (ix2 p n) (ix2 (0 : Fin 1) n) (fun a => match a with
    | ⟨0, _⟩ => by show (0 : Nat) = if (1 : Nat) = 1 then 0 else p.val; rw [if_pos rfl]
    | ⟨1, _⟩ => by show n.val = if (1024 : Nat) = 1 then 0 else n.val; rw [if_neg (by decide)])]
  refine shapeCast_apply P4 h2 (ix2 (0 : Fin 1) n) (ix1 n) ?_
  rw [Shape.rowMajor_val_one, Shape.rowMajor_val_two]
  show n.val = 0 * 1024 + n.val
  omega

/-! ## The product read at an entry -/

theorem lhs_row (i : S512x1024.Idx) (κ : dot_S512x2048_S1024x2048_S512x1024_1_1_0_0_n_n.contr.Idx) :
    (dot_S512x2048_S1024x2048_S512x1024_1_1_0_0_n_n.lhsIdx i κ 0).val = (i 0).val := by
  unfold DotDims.lhsIdx
  rw [dif_neg (show ¬(0 : Fin S512x2048.rank) ∈ dot_S512x2048_S1024x2048_S512x1024_1_1_0_0_n_n.lhsBatch by decide),
    dif_pos (show (0 : Fin S512x2048.rank) ∈ dot_S512x2048_S1024x2048_S512x1024_1_1_0_0_n_n.lhsNonContracting by decide)]
  rfl

theorem rhs_row (i : S512x1024.Idx) (κ : dot_S512x2048_S1024x2048_S512x1024_1_1_0_0_n_n.contr.Idx) :
    (dot_S512x2048_S1024x2048_S512x1024_1_1_0_0_n_n.rhsIdx i κ 0).val = (i 1).val := by
  unfold DotDims.rhsIdx
  rw [dif_neg (show ¬(0 : Fin S1024x2048.rank) ∈ dot_S512x2048_S1024x2048_S512x1024_1_1_0_0_n_n.rhsBatch by decide),
    dif_pos (show (0 : Fin S1024x2048.rank) ∈ dot_S512x2048_S1024x2048_S512x1024_1_1_0_0_n_n.rhsNonContracting by decide)]
  rfl

/-- Rows against rows into a zero accumulator: entry (p, n) is row p of the left operand against row n of the right. -/
theorem prod_entry (A : FVec Ideal S512x2048 .bf16) (B : FVec Ideal S1024x2048 .bf16) (p : Fin 512) (n : Fin 1024) :
    matmul dot_S512x2048_S1024x2048_S512x1024_1_1_0_0_n_n none A B (constant S512x1024 .f32 0x00000000#32) (ix2 p n)
      = ∑ k : Fin 2048, A (ix2 p k) * B (ix2 n k) := by
  simp only [matmul]
  rw [Ideal.matmul_constant_zero_apply,
    ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p n)
      ((contrEquiv1 dot_S512x2048_S1024x2048_S512x1024_1_1_0_0_n_n 2048 rfl rfl).symm k) = ix2 p k :=
    funext fun a => Fin.ext (by
      match a with
      | ⟨0, _⟩ => exact lhs_row _ _
      | ⟨1, _⟩ => exact (dot_S512x2048_S1024x2048_S512x1024_1_1_0_0_n_n.lhsIdx_val_of_single rfl _ _).trans hk)
  have er : dot_S512x2048_S1024x2048_S512x1024_1_1_0_0_n_n.rhsIdx (ix2 p n)
      ((contrEquiv1 dot_S512x2048_S1024x2048_S512x1024_1_1_0_0_n_n 2048 rfl rfl).symm k) = ix2 n k :=
    funext fun a => Fin.ext (by
      match a with
      | ⟨0, _⟩ => exact rhs_row _ _
      | ⟨1, _⟩ => exact (dot_S512x2048_S1024x2048_S512x1024_1_1_0_0_n_n.rhsIdx_val_of_single rfl _ _).trans hk)
  rw [el, er]

/-! ## A pre-activation of the block -/

section
variable (P0 P1 : Vec Ideal S512x2048 .bf16) (P2 P3 : Vec Ideal S4x256x2048 .bf16) (P4 : Vec Ideal S1024 .f32)
  (P5 : Vec Ideal S512x256 .f32)

/-- Gate `g`'s pre-activation for the block's row `p` and hidden unit `q`, from the loaded blocks. -/
def blockPre (p : Fin 512) (g : Fin 4) (q : Fin 256) : EReal :=
  ((∑ k : Fin 2048, P0 (ix2 p k) * P2 (ix3 g q k)) + (∑ k : Fin 2048, P1 (ix2 p k) * P3 (ix3 g q k)))
    + P4 (ix1 (tileRow g q))

/-- The body's 512 × 1024 array of pre-activations at column `g * 256 + q`. -/
theorem pre_entry (p : Fin 512) (g : Fin 4) (q : Fin 256) :
    k0_pay1 P0 P1 P2 P3 P4 (ix2 p (tileRow g q)) = blockPre P0 P1 P2 P3 P4 p g q := by
  unfold k0_pay1 blockPre
  simp only [addf_apply, prod_entry, bias_entry, shapeCast_self, merged_entry]

/-! ## The two result blocks -/

/-- The new cell state's block at (p, q). -/
theorem cell_block (p : Fin 512) (q : Fin 256) :
    Value.E7 P0 P1 P2 P3 P4 P5 (ix2 p q)
      = Ideal.logistic (blockPre P0 P1 P2 P3 P4 p 1 q) * P5 (ix2 p q)
        + Ideal.logistic (blockPre P0 P1 P2 P3 P4 p 0 q) * Ideal.tanh (blockPre P0 P1 P2 P3 P4 p 2 q) := by
  have i0 : Value.ix7_0 (ix2 p q) = ix2 p (tileRow 1 q) :=
    funext fun a => Fin.ext (by match a with | ⟨0, _⟩ => rfl | ⟨1, _⟩ => (show q.val + 256 = 1 * 256 + q.val; omega))
  have i1 : Value.ix7_1 (ix2 p q) = ix2 p q :=
    funext fun a => Fin.ext (by match a with | ⟨0, _⟩ => rfl | ⟨1, _⟩ => rfl)
  have i2 : Value.ix7_2 (ix2 p q) = ix2 p (tileRow 0 q) :=
    funext fun a => Fin.ext (by match a with | ⟨0, _⟩ => rfl | ⟨1, _⟩ => (show q.val = 0 * 256 + q.val; omega))
  have i3 : Value.ix7_3 (ix2 p q) = ix2 p (tileRow 2 q) :=
    funext fun a => Fin.ext (by match a with | ⟨0, _⟩ => rfl | ⟨1, _⟩ => (show q.val + 512 = 2 * 256 + q.val; omega))
  show FloatOps.addf (FloatOps.mulf (FloatOps.logistic (k0_pay1 P0 P1 P2 P3 P4 (Value.ix7_0 (ix2 p q)))) (P5 (Value.ix7_1 (ix2 p q))))
      (FloatOps.mulf (FloatOps.logistic (k0_pay1 P0 P1 P2 P3 P4 (Value.ix7_2 (ix2 p q))))
        (FloatOps.tanh (k0_pay1 P0 P1 P2 P3 P4 (Value.ix7_3 (ix2 p q))))) = _
  rw [i0, i1, i2, i3, pre_entry, pre_entry, pre_entry]
  rfl

/-- The new hidden state's block at (p, q). -/
theorem hidden_block (p : Fin 512) (q : Fin 256) :
    Value.E6 P0 P1 P2 P3 P4 P5 (ix2 p q)
      = Ideal.logistic (blockPre P0 P1 P2 P3 P4 p 3 q)
        * Ideal.tanh (Ideal.logistic (blockPre P0 P1 P2 P3 P4 p 1 q) * P5 (ix2 p q)
            + Ideal.logistic (blockPre P0 P1 P2 P3 P4 p 0 q) * Ideal.tanh (blockPre P0 P1 P2 P3 P4 p 2 q)) := by
  have i0 : Value.ix6_0 (ix2 p q) = ix2 p (tileRow 3 q) :=
    funext fun a => Fin.ext (by match a with | ⟨0, _⟩ => rfl | ⟨1, _⟩ => (show q.val + 768 = 3 * 256 + q.val; omega))
  have i1 : Value.ix6_1 (ix2 p q) = ix2 p (tileRow 1 q) :=
    funext fun a => Fin.ext (by match a with | ⟨0, _⟩ => rfl | ⟨1, _⟩ => (show q.val + 256 = 1 * 256 + q.val; omega))
  have i2 : Value.ix6_2 (ix2 p q) = ix2 p q :=
    funext fun a => Fin.ext (by match a with | ⟨0, _⟩ => rfl | ⟨1, _⟩ => rfl)
  have i3 : Value.ix6_3 (ix2 p q) = ix2 p (tileRow 0 q) :=
    funext fun a => Fin.ext (by match a with | ⟨0, _⟩ => rfl | ⟨1, _⟩ => (show q.val = 0 * 256 + q.val; omega))
  have i4 : Value.ix6_4 (ix2 p q) = ix2 p (tileRow 2 q) :=
    funext fun a => Fin.ext (by match a with | ⟨0, _⟩ => rfl | ⟨1, _⟩ => (show q.val + 512 = 2 * 256 + q.val; omega))
  show FloatOps.mulf (FloatOps.logistic (k0_pay1 P0 P1 P2 P3 P4 (Value.ix6_0 (ix2 p q))))
      (FloatOps.tanh (FloatOps.addf
        (FloatOps.mulf (FloatOps.logistic (k0_pay1 P0 P1 P2 P3 P4 (Value.ix6_1 (ix2 p q)))) (P5 (Value.ix6_2 (ix2 p q))))
        (FloatOps.mulf (FloatOps.logistic (k0_pay1 P0 P1 P2 P3 P4 (Value.ix6_3 (ix2 p q))))
          (FloatOps.tanh (k0_pay1 P0 P1 P2 P3 P4 (Value.ix6_4 (ix2 p q))))))) = _
  rw [i0, i1, i2, i3, i4, pre_entry, pre_entry, pre_entry, pre_entry]
  rfl

end

/-! ## The block against the specification -/

/-- Row `p` of batch tile `bt`. -/
def batchRow (bt : Nat) (hbt : bt < 8) (p : Fin 512) : Fin 4096 := ⟨bt * 512 + p.val, by have hp := p.isLt; omega⟩
/-- Hidden unit `q` of hidden tile `ht`. -/
def hiddenUnit (ht : Nat) (hht : ht < 8) (q : Fin 256) : Fin 2048 := ⟨ht * 256 + q.val, by have hq := q.isLt; omega⟩

section
variable (x hx cx : Sact.Idx → EReal) (Wx : Swt.Idx → EReal) (bx : Sbias.Idx → EReal) (Wh : Swt.Idx → EReal)
  (bh : Sbias.Idx → EReal)
variable (P0 P1 : Vec Ideal S512x2048 .bf16) (P2 P3 : Vec Ideal S4x256x2048 .bf16) (P4 : Vec Ideal S1024 .f32)
  (P5 : Vec Ideal S512x256 .f32)
variable (bt ht : Nat) (hbt : bt < 8) (hht : ht < 8)

/-- If the loaded blocks are the arguments' entries of batch tile `bt` and hidden tile `ht`, a block pre-activation is
    the specification's. -/
theorem blockPre_eq
    (e0 : ∀ (p : Fin 512) (k : Fin 2048), P0 (ix2 p k) = x (ix2 (batchRow bt hbt p) k))
    (e1 : ∀ (p : Fin 512) (k : Fin 2048), P1 (ix2 p k) = hx (ix2 (batchRow bt hbt p) k))
    (e2 : ∀ (g : Fin 4) (q : Fin 256) (k : Fin 2048), P2 (ix3 g q k) = Wx (ix2 (gateRow g (hiddenUnit ht hht q)) k))
    (e3 : ∀ (g : Fin 4) (q : Fin 256) (k : Fin 2048), P3 (ix3 g q k) = Wh (ix2 (gateRow g (hiddenUnit ht hht q)) k))
    (e4 : ∀ (g : Fin 4) (q : Fin 256), P4 (ix1 (tileRow g q))
      = bx (ix1 (gateRow g (hiddenUnit ht hht q))) + bh (ix1 (gateRow g (hiddenUnit ht hht q))))
    (p : Fin 512) (g : Fin 4) (q : Fin 256) :
    blockPre P0 P1 P2 P3 P4 p g q = preAt x hx Wx bx Wh bh (batchRow bt hbt p) (gateRow g (hiddenUnit ht hht q)) := by
  unfold blockPre preAt rowDot
  rw [e4]
  simp only [e0, e1, e2, e3]

theorem cell_block_eq
    (e0 : ∀ (p : Fin 512) (k : Fin 2048), P0 (ix2 p k) = x (ix2 (batchRow bt hbt p) k))
    (e1 : ∀ (p : Fin 512) (k : Fin 2048), P1 (ix2 p k) = hx (ix2 (batchRow bt hbt p) k))
    (e2 : ∀ (g : Fin 4) (q : Fin 256) (k : Fin 2048), P2 (ix3 g q k) = Wx (ix2 (gateRow g (hiddenUnit ht hht q)) k))
    (e3 : ∀ (g : Fin 4) (q : Fin 256) (k : Fin 2048), P3 (ix3 g q k) = Wh (ix2 (gateRow g (hiddenUnit ht hht q)) k))
    (e4 : ∀ (g : Fin 4) (q : Fin 256), P4 (ix1 (tileRow g q))
      = bx (ix1 (gateRow g (hiddenUnit ht hht q))) + bh (ix1 (gateRow g (hiddenUnit ht hht q))))
    (e5 : ∀ (p : Fin 512) (q : Fin 256), P5 (ix2 p q) = cx (ix2 (batchRow bt hbt p) (hiddenUnit ht hht q)))
    (p : Fin 512) (q : Fin 256) :
    Value.E7 P0 P1 P2 P3 P4 P5 (ix2 p q) = cellAt x hx cx Wx bx Wh bh (batchRow bt hbt p) (hiddenUnit ht hht q) := by
  rw [cell_block, e5, blockPre_eq x hx Wx bx Wh bh P0 P1 P2 P3 P4 bt ht hbt hht e0 e1 e2 e3 e4,
    blockPre_eq x hx Wx bx Wh bh P0 P1 P2 P3 P4 bt ht hbt hht e0 e1 e2 e3 e4,
    blockPre_eq x hx Wx bx Wh bh P0 P1 P2 P3 P4 bt ht hbt hht e0 e1 e2 e3 e4]
  rfl

theorem hidden_block_eq
    (e0 : ∀ (p : Fin 512) (k : Fin 2048), P0 (ix2 p k) = x (ix2 (batchRow bt hbt p) k))
    (e1 : ∀ (p : Fin 512) (k : Fin 2048), P1 (ix2 p k) = hx (ix2 (batchRow bt hbt p) k))
    (e2 : ∀ (g : Fin 4) (q : Fin 256) (k : Fin 2048), P2 (ix3 g q k) = Wx (ix2 (gateRow g (hiddenUnit ht hht q)) k))
    (e3 : ∀ (g : Fin 4) (q : Fin 256) (k : Fin 2048), P3 (ix3 g q k) = Wh (ix2 (gateRow g (hiddenUnit ht hht q)) k))
    (e4 : ∀ (g : Fin 4) (q : Fin 256), P4 (ix1 (tileRow g q))
      = bx (ix1 (gateRow g (hiddenUnit ht hht q))) + bh (ix1 (gateRow g (hiddenUnit ht hht q))))
    (e5 : ∀ (p : Fin 512) (q : Fin 256), P5 (ix2 p q) = cx (ix2 (batchRow bt hbt p) (hiddenUnit ht hht q)))
    (p : Fin 512) (q : Fin 256) :
    Value.E6 P0 P1 P2 P3 P4 P5 (ix2 p q) = hiddenAt x hx cx Wx bx Wh bh (batchRow bt hbt p) (hiddenUnit ht hht q) := by
  rw [hidden_block, e5, blockPre_eq x hx Wx bx Wh bh P0 P1 P2 P3 P4 bt ht hbt hht e0 e1 e2 e3 e4,
    blockPre_eq x hx Wx bx Wh bh P0 P1 P2 P3 P4 bt ht hbt hht e0 e1 e2 e3 e4,
    blockPre_eq x hx Wx bx Wh bh P0 P1 P2 P3 P4 bt ht hbt hht e0 e1 e2 e3 e4,
    blockPre_eq x hx Wx bx Wh bh P0 P1 P2 P3 P4 bt ht hbt hht e0 e1 e2 e3 e4]
  rfl

end

/-! ## What the body stores -/

theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

section
variable (x0 x1 : Vec Ideal S512x2048 .bf16) (x2 : Vec Ideal S512x256 .f32) (x3 x4 : Vec Ideal S4x256x2048 .bf16)
  (x5 : Vec Ideal S1024 .f32)

/-- The body loads every block whole and stores the new cell state whole: the stored block is the entrywise one. -/
theorem cell_stored (y : S512x256.Idx) : out0_7 x0 x1 x2 x3 x4 x5 y = Value.E7 x0 x1 x3 x4 x5 x2 y := by
  unfold out0_7
  simp only [View.ld_unit_zero (S := S512x2048) zeros2, View.ld_unit_zero (S := S512x256) zeros2,
    View.ld_unit_zero (S := S4x256x2048) zeros3, View.ld_unit_zero (S := S1024) zeros1]
  exact Value.canon7_eq x0 x1 x3 x4 x5 x2 y

/-- The same for the new hidden state. -/
theorem hidden_stored (y : S512x256.Idx) : out0_6 x0 x1 x2 x3 x4 x5 y = Value.E6 x0 x1 x3 x4 x5 x2 y := by
  unfold out0_6
  simp only [View.ld_unit_zero (S := S512x2048) zeros2, View.ld_unit_zero (S := S512x256) zeros2,
    View.ld_unit_zero (S := S4x256x2048) zeros3, View.ld_unit_zero (S := S1024) zeros1]
  exact Value.canon6_eq x0 x1 x3 x4 x5 x2 y

end

end Cert.KernelIdeal.Block

end
-- ==== Proof.HostPrefix.lean ====
/-
  The arrays the kernel's windows read, as the launch finds them.

  Before the launch the host casts `x`, `hx`, `Wx`, `Wh` to a narrower float format (the identity on extended reals),
  splits the stacked 8192 weight rows into 4 gates × 2048 rows, and adds the two biases and re-lays the sum so that
  the 4 × 256 entries each hidden tile needs are contiguous: entry `ht * 1024 + g * 256 + q` of the re-laid bias is
  entry `g * 2048 + ht * 256 + q` of `bx + bh`.  Each is read here at an entry.
-/
import proofs.«145008_j2250562863750_2_alg».proof.Proof.Gen.KernelIdeal.Frame
import proofs.«145008_j2250562863750_2_alg».proof.Proof.KernelBlock
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx Cert.Lstm Cert.KernelIdeal.Block

variable (m : (ℓ : Loc nD τ sig) → Buf (Elt Ideal) ℓ)

/-- The cast copy of `x` holds `x`. -/
theorem x_entry (c : Dev nD) (i : S4096x2048.Idx) :
    (V m c main_v0 : S4096x2048.Idx → EReal) i = (m ((c : Thread nD τ).loc main_arg0) : S4096x2048.Idx → EReal) i := by
  dsimp only [V, hostOps0]
  after_results
  rfl

/-- The cast copy of `hx` holds `hx`. -/
theorem hx_entry (c : Dev nD) (i : S4096x2048.Idx) :
    (V m c main_v1 : S4096x2048.Idx → EReal) i = (m ((c : Thread nD τ).loc main_arg1) : S4096x2048.Idx → EReal) i := by
  dsimp only [V, hostOps0]
  after_results
  rfl

/-- `cx` is staged as launched. -/
theorem cx_entry (c : Dev nD) (i : S4096x2048.Idx) :
    (V m c main_arg2 : S4096x2048.Idx → EReal) i = (m ((c : Thread nD τ).loc main_arg2) : S4096x2048.Idx → EReal) i := by
  rw [V_main_arg2]

/-- Entry (g, h, k) of the split `Wx` is entry (g * 2048 + h, k) of `Wx`. -/
theorem Wx_entry (c : Dev nD) (g : Fin 4) (h : Fin 2048) (k : Fin 2048) :
    (V m c main_v3 : S4x2048x2048.Idx → EReal) (ix3 g h k)
      = (m ((c : Thread nD τ).loc main_arg3) : S8192x2048.Idx → EReal) (ix2 (gateRow g h) k) := by
  have e : @Eq (S4x2048x2048.Idx → EReal) (V m c main_v3)
      (shapeCast S4x2048x2048
        (truncf .bf16 (m ((c : Thread nD τ).loc main_arg3) : FVec Ideal S8192x2048 .f32) bitsLt_bf16_f32 : FVec Ideal S8192x2048 .bf16)
        shapeCasts_S8192x2048_S4x2048x2048) := by
    dsimp only [V, hostOps0]; after_results; rfl
  rw [e]
  refine (shapeCast_apply _ shapeCasts_S8192x2048_S4x2048x2048 (ix3 g h k) (ix2 (gateRow g h) k) ?_).trans rfl
  rw [Shape.rowMajor_val_three, Shape.rowMajor_val_two]
  rfl

/-- Entry (g, h, k) of the split `Wh` is entry (g * 2048 + h, k) of `Wh`. -/
theorem Wh_entry (c : Dev nD) (g : Fin 4) (h : Fin 2048) (k : Fin 2048) :
    (V m c main_v5 : S4x2048x2048.Idx → EReal) (ix3 g h k)
      = (m ((c : Thread nD τ).loc main_arg5) : S8192x2048.Idx → EReal) (ix2 (gateRow g h) k) := by
  have e : @Eq (S4x2048x2048.Idx → EReal) (V m c main_v5)
      (shapeCast S4x2048x2048
        (truncf .bf16 (m ((c : Thread nD τ).loc main_arg5) : FVec Ideal S8192x2048 .f32) bitsLt_bf16_f32 : FVec Ideal S8192x2048 .bf16)
        shapeCasts_S8192x2048_S4x2048x2048) := by
    dsimp only [V, hostOps0]; after_results; rfl
  rw [e]
  refine (shapeCast_apply _ shapeCasts_S8192x2048_S4x2048x2048 (ix3 g h k) (ix2 (gateRow g h) k) ?_).trans rfl
  rw [Shape.rowMajor_val_three, Shape.rowMajor_val_two]
  rfl

/-- Entry `ht * 1024 + g * 256 + q` of the re-laid bias is `bx + bh` at gate `g`'s row of hidden unit `ht * 256 + q`. -/
theorem bias_entry (c : Dev nD) (ht : Nat) (hht : ht < 8) (g : Fin 4) (q : Fin 256) (n : Fin 8192)
    (hn : n.val = ht * 1024 + (tileRow g q).val) :
    @Eq EReal ((V m c main_v10 : S8192.Idx → EReal) (ix1 n))
      (addf (F := Ideal) (s := S8192) (φ := .f32) (m ((c : Thread nD τ).loc main_arg4)) (m ((c : Thread nD τ).loc main_arg6))
          (ix1 (gateRow g (hiddenUnit ht hht q)))) := by
  have e : @Eq (S8192.Idx → EReal) (V m c main_v10)
      (shapeCast S8192 (transpose S8x4x256 [1, 0, 2]
          (shapeCast S4x8x256 (shapeCast S4x2048
            (addf (F := Ideal) (s := S8192) (φ := .f32) (m ((c : Thread nD τ).loc main_arg4)) (m ((c : Thread nD τ).loc main_arg6)))
            shapeCasts_S8192_S4x2048) shapeCasts_S4x2048_S4x8x256)
          transposes_S4x8x256_S8x4x256_1_0_2) shapeCasts_S8x4x256_S8192) := by
    dsimp only [V, hostOps0]; after_results; rfl
  have hq := q.isLt
  have hg := g.isLt
  rw [e]
  -- the flat entry is (ht, g, q) of the 8 × 4 × 256 array
  refine (shapeCast_apply _ shapeCasts_S8x4x256_S8192 (ix1 n) (ix3 (⟨ht, hht⟩ : Fin 8) g q) ?_).trans ?_
  · rw [Shape.rowMajor_val_three, Shape.rowMajor_val_one]
    show (ht * 4 + g.val) * 256 + q.val = n.val
    rw [hn]; show _ = ht * 1024 + (g.val * 256 + q.val); omega
  -- which the transpose took from (g, ht, q) of the 4 × 8 × 256 array
  refine (transpose_apply [1, 0, 2] _ transposes_S4x8x256_S8x4x256_1_0_2 (ix3 (⟨ht, hht⟩ : Fin 8) g q)
    (ix3 g (⟨ht, hht⟩ : Fin 8) q) (fun b => match b with | ⟨0, _⟩ => rfl | ⟨1, _⟩ => rfl | ⟨2, _⟩ => rfl)).trans ?_
  -- which is (g, ht * 256 + q) of the 4 × 2048 array
  refine (shapeCast_apply _ shapeCasts_S4x2048_S4x8x256 (ix3 g (⟨ht, hht⟩ : Fin 8) q) (ix2 g (hiddenUnit ht hht q)) ?_).trans ?_
  · rw [Shape.rowMajor_val_three, Shape.rowMajor_val_two]
    show g.val * 2048 + (ht * 256 + q.val) = (g.val * 8 + ht) * 256 + q.val
    omega
  -- which is entry g * 2048 + ht * 256 + q of the sum
  refine (shapeCast_apply _ shapeCasts_S8192_S4x2048 (ix2 g (hiddenUnit ht hht q)) (ix1 (gateRow g (hiddenUnit ht hht q))) ?_).trans rfl
  rw [Shape.rowMajor_val_two, Shape.rowMajor_val_one]
  rfl

end Cert.KernelIdeal.HostPrefix

end
-- ==== Proof.KernelValue.lean ====
/-
  The kernel's two result arrays after the run are the specification's new hidden and cell states.

  The grid has 8 hidden tiles (outer) by 8 batch tiles (inner).  At a point with batch tile `bt` and hidden tile `ht`
  the windows stage rows `bt * 512 + p` of `x` and `hx`, the entries (bt * 512 + p, ht * 256 + q) of `cx`, rows
  (g, ht * 256 + q) of the split weights and entries `ht * 1024 + g * 256 + q` of the re-laid bias; both results are
  written back to the entries (bt * 512 + p, ht * 256 + q).  So what a point writes back is its block of the
  specification's arrays, and the 64 blocks tile the 4096 × 2048 arrays: the point that covers entry (b, h) is the
  one with tiles (b / 512, h / 256).
-/
import proofs.«145008_j2250562863750_2_alg».proof.Proof.Gen.KernelIdeal.Value
import proofs.«145008_j2250562863750_2_alg».proof.Proof.KernelBlock
import proofs.«145008_j2250562863750_2_alg».proof.Proof.HostPrefix
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.ValueIdx Cert.Lstm Cert.KernelIdeal.Block
open Idealize.ShloMosaic.Pipeline (Dat)

variable (m : (ℓ : Loc nD τ sig) → Buf (Elt Ideal) ℓ) (ρ : Dev nD → PrngReg)

/-- The specification's new cell state of the launched arguments. -/
def cellArr (c : Dev nD) : S4096x2048.Idx → EReal := cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The specification's new hidden state of the launched arguments. -/
def hiddenArr (c : Dev nD) : S4096x2048.Idx → EReal := hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## The index maps, decided over the 64 grid points -/

/-- Every window's block index in terms of the result windows' (batch tile, hidden tile). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = win0_6.index t (1 : Fin 2)
    ∧ win0_3.index t (0 : Fin 3) = 0 ∧ win0_3.index t (1 : Fin 3) = win0_6.index t (1 : Fin 2) ∧ win0_3.index t (2 : Fin 3) = 0
    ∧ win0_4.index t (0 : Fin 3) = 0 ∧ win0_4.index t (1 : Fin 3) = win0_6.index t (1 : Fin 2) ∧ win0_4.index t (2 : Fin 3) = 0
    ∧ win0_5.index t (0 : Fin 1) = win0_6.index t (1 : Fin 2)
    ∧ win0_7.index t (0 : Fin 2) = win0_6.index t (0 : Fin 2) ∧ win0_7.index t (1 : Fin 2) = win0_6.index t (1 : Fin 2)
    ∧ win0_6.index t (0 : Fin 2) < 8 ∧ win0_6.index t (1 : Fin 2) < 8 :=
  (by decide +kernel : ∀ t : Fin grid0.N, _)

/-- Every pair of tiles is some point's. -/
theorem idx_onto : ∀ (q0 q1 : Fin 8), ∃ t : Fin cfg0.N, win0_6.index t = ![q0.val, q1.val] :=
  (by decide +kernel : ∀ (q0 q1 : Fin 8), ∃ t : Fin grid0.N, win0_6.index t = ![q0.val, q1.val])

theorem bt_lt (t : Fin cfg0.N) : win0_6.index t (0 : Fin 2) < 8 := (idx_facts t).2.2.2.2.2.2.2.2.2.2.2.2.2.2.2.1
theorem ht_lt (t : Fin cfg0.N) : win0_6.index t (1 : Fin 2) < 8 := (idx_facts t).2.2.2.2.2.2.2.2.2.2.2.2.2.2.2.2

/-! ## The staged blocks are the arguments' entries -/

theorem read_x (c : Dev nD) (t : Fin cfg0.N) (p : Fin 512) (k : Fin 2048) :
    (iblk m c 0 t : S512x2048.Idx → EReal) (ix2 p k)
      = ((m ((c : Thread nD τ).loc main_arg0)) : S4096x2048.Idx → EReal) (ix2 (batchRow (win0_6.index t (0 : Fin 2)) (bt_lt t) p) k) := by
  obtain ⟨a0, a1, -⟩ := idx_facts t
  show (V m c main_v0 : S4096x2048.Idx → EReal) (((cfg0.win 0).blk t).view.emb (ix2 p k)) = _
  have he : ((cfg0.win 0).blk t).view.emb (ix2 p k) = ix2 (batchRow (win0_6.index t (0 : Fin 2)) (bt_lt t) p) k := by
    funext a; apply Fin.ext
    match a with
    | ⟨0, _⟩ => show win0_0.index t (0 : Fin 2) * 512 + 1 * p.val = win0_6.index t (0 : Fin 2) * 512 + p.val; omega
    | ⟨1, _⟩ => show win0_0.index t (1 : Fin 2) * 2048 + 1 * k.val = k.val; omega
  rw [he]
  exact HostPrefix.x_entry m c _

theorem read_hx (c : Dev nD) (t : Fin cfg0.N) (p : Fin 512) (k : Fin 2048) :
    (iblk m c 1 t : S512x2048.Idx → EReal) (ix2 p k)
      = ((m ((c : Thread nD τ).loc main_arg1)) : S4096x2048.Idx → EReal) (ix2 (batchRow (win0_6.index t (0 : Fin 2)) (bt_lt t) p) k) := by
  obtain ⟨-, -, a0, a1, -⟩ := idx_facts t
  show (V m c main_v1 : S4096x2048.Idx → EReal) (((cfg0.win 1).blk t).view.emb (ix2 p k)) = _
  have he : ((cfg0.win 1).blk t).view.emb (ix2 p k) = ix2 (batchRow (win0_6.index t (0 : Fin 2)) (bt_lt t) p) k := by
    funext a; apply Fin.ext
    match a with
    | ⟨0, _⟩ => show win0_1.index t (0 : Fin 2) * 512 + 1 * p.val = win0_6.index t (0 : Fin 2) * 512 + p.val; omega
    | ⟨1, _⟩ => show win0_1.index t (1 : Fin 2) * 2048 + 1 * k.val = k.val; omega
  rw [he]
  exact HostPrefix.hx_entry m c _

theorem read_cx (c : Dev nD) (t : Fin cfg0.N) (p : Fin 512) (q : Fin 256) :
    (iblk m c 2 t : S512x256.Idx → EReal) (ix2 p q)
      = ((m ((c : Thread nD τ).loc main_arg2)) : S4096x2048.Idx → EReal)
          (ix2 (batchRow (win0_6.index t (0 : Fin 2)) (bt_lt t) p) (hiddenUnit (win0_6.index t (1 : Fin 2)) (ht_lt t) q)) := by
  obtain ⟨-, -, -, -, a0, a1, -⟩ := idx_facts t
  show (V m c main_arg2 : S4096x2048.Idx → EReal) (((cfg0.win 2).blk t).view.emb (ix2 p q)) = _
  have he : ((cfg0.win 2).blk t).view.emb (ix2 p q)
      = ix2 (batchRow (win0_6.index t (0 : Fin 2)) (bt_lt t) p) (hiddenUnit (win0_6.index t (1 : Fin 2)) (ht_lt t) q) := by
    funext a; apply Fin.ext
    match a with
    | ⟨0, _⟩ => show win0_2.index t (0 : Fin 2) * 512 + 1 * p.val = win0_6.index t (0 : Fin 2) * 512 + p.val; omega
    | ⟨1, _⟩ => show win0_2.index t (1 : Fin 2) * 256 + 1 * q.val = win0_6.index t (1 : Fin 2) * 256 + q.val; omega
  rw [he]
  exact HostPrefix.cx_entry m c _

theorem read_Wx (c : Dev nD) (t : Fin cfg0.N) (g : Fin 4) (q : Fin 256) (k : Fin 2048) :
    (iblk m c 3 t : S4x256x2048.Idx → EReal) (ix3 g q k)
      = ((m ((c : Thread nD τ).loc main_arg3)) : S8192x2048.Idx → EReal) (ix2 (gateRow g (hiddenUnit (win0_6.index t (1 : Fin 2)) (ht_lt t) q)) k) := by
  obtain ⟨-, -, -, -, -, -, a0, a1, a2, -⟩ := idx_facts t
  show (V m c main_v3 : S4x2048x2048.Idx → EReal) (((cfg0.win 3).blk t).view.emb (ix3 g q k)) = _
  have he : ((cfg0.win 3).blk t).view.emb (ix3 g q k) = ix3 g (hiddenUnit (win0_6.index t (1 : Fin 2)) (ht_lt t) q) k := by
    funext a; apply Fin.ext
    match a with
    | ⟨0, _⟩ => show win0_3.index t (0 : Fin 3) * 4 + 1 * g.val = g.val; omega
    | ⟨1, _⟩ => show win0_3.index t (1 : Fin 3) * 256 + 1 * q.val = win0_6.index t (1 : Fin 2) * 256 + q.val; omega
    | ⟨2, _⟩ => show win0_3.index t (2 : Fin 3) * 2048 + 1 * k.val = k.val; omega
  rw [he]
  exact HostPrefix.Wx_entry m c g _ k

theorem read_Wh (c : Dev nD) (t : Fin cfg0.N) (g : Fin 4) (q : Fin 256) (k : Fin 2048) :
    (iblk m c 4 t : S4x256x2048.Idx → EReal) (ix3 g q k)
      = ((m ((c : Thread nD τ).loc main_arg5)) : S8192x2048.Idx → EReal) (ix2 (gateRow g (hiddenUnit (win0_6.index t (1 : Fin 2)) (ht_lt t) q)) k) := by
  obtain ⟨-, -, -, -, -, -, -, -, -, a0, a1, a2, -⟩ := idx_facts t
  show (V m c main_v5 : S4x2048x2048.Idx → EReal) (((cfg0.win 4).blk t).view.emb (ix3 g q k)) = _
  have he : ((cfg0.win 4).blk t).view.emb (ix3 g q k) = ix3 g (hiddenUnit (win0_6.index t (1 : Fin 2)) (ht_lt t) q) k := by
    funext a; apply Fin.ext
    match a with
    | ⟨0, _⟩ => show win0_4.index t (0 : Fin 3) * 4 + 1 * g.val = g.val; omega
    | ⟨1, _⟩ => show win0_4.index t (1 : Fin 3) * 256 + 1 * q.val = win0_6.index t (1 : Fin 2) * 256 + q.val; omega
    | ⟨2, _⟩ => show win0_4.index t (2 : Fin 3) * 2048 + 1 * k.val = k.val; omega
  rw [he]
  exact HostPrefix.Wh_entry m c g _ k

theorem read_bias (c : Dev nD) (t : Fin cfg0.N) (g : Fin 4) (q : Fin 256) :
    @Eq EReal ((iblk m c 5 t : S1024.Idx → EReal) (ix1 (tileRow g q)))
      (addf (F := Ideal) (s := S8192) (φ := .f32) (m ((c : Thread nD τ).loc main_arg4)) (m ((c : Thread nD τ).loc main_arg6))
          (ix1 (gateRow g (hiddenUnit (win0_6.index t (1 : Fin 2)) (ht_lt t) q)))) := by
  obtain ⟨-, -, -, -, -, -, -, -, -, -, -, -, a0, -⟩ := idx_facts t
  have hlt := ht_lt t
  have hr := (tileRow g q).isLt
  show (V m c main_v10 : S8192.Idx → EReal) (((cfg0.win 5).blk t).view.emb (ix1 (tileRow g q))) = _
  have he : ((cfg0.win 5).blk t).view.emb (ix1 (tileRow g q))
      = ix1 (⟨win0_6.index t (1 : Fin 2) * 1024 + (tileRow g q).val, by omega⟩ : Fin 8192) := by
    funext a; apply Fin.ext
    match a with
    | ⟨0, _⟩ => show win0_5.index t (0 : Fin 1) * 1024 + 1 * (tileRow g q).val = win0_6.index t (1 : Fin 2) * 1024 + (tileRow g q).val; omega
  rw [he]
  exact HostPrefix.bias_entry m c _ (ht_lt t) g q _ rfl

/-! ## What a point writes back -/

theorem out_emb6 (t : Fin cfg0.N) (p : Fin 512) (q : Fin 256) :
    ((cfg0.win 6).blk t).view.emb (ix2 p q)
      = ix2 (batchRow (win0_6.index t (0 : Fin 2)) (bt_lt t) p) (hiddenUnit (win0_6.index t (1 : Fin 2)) (ht_lt t) q) := by
  funext a; apply Fin.ext
  match a with
  | ⟨0, _⟩ => show win0_6.index t (0 : Fin 2) * 512 + 1 * p.val = win0_6.index t (0 : Fin 2) * 512 + p.val; omega
  | ⟨1, _⟩ => show win0_6.index t (1 : Fin 2) * 256 + 1 * q.val = win0_6.index t (1 : Fin 2) * 256 + q.val; omega

theorem out_emb7 (t : Fin cfg0.N) (p : Fin 512) (q : Fin 256) :
    ((cfg0.win 7).blk t).view.emb (ix2 p q)
      = ix2 (batchRow (win0_6.index t (0 : Fin 2)) (bt_lt t) p) (hiddenUnit (win0_6.index t (1 : Fin 2)) (ht_lt t) q) := by
  obtain ⟨-, -, -, -, -, -, -, -, -, -, -, -, -, a0, a1, -⟩ := idx_facts t
  funext a; apply Fin.ext
  match a with
  | ⟨0, _⟩ => show win0_7.index t (0 : Fin 2) * 512 + 1 * p.val = win0_6.index t (0 : Fin 2) * 512 + p.val; omega
  | ⟨1, _⟩ => show win0_7.index t (1 : Fin 2) * 256 + 1 * q.val = win0_6.index t (1 : Fin 2) * 256 + q.val; omega

/-- Point `t` writes back its block of the new cell state. -/
theorem flushed7_eq (c : Dev nD) (t : Fin cfg0.N) :
    (dats m 0 c).flushed 7 t = ((cfg0.win 7).blk t).view.read (Elt Ideal) (cellArr m c) := by
  rw [Value.flushed7]
  refine funext fun (y : S512x256.Idx) => ?_
  obtain ⟨p, q, rfl⟩ : ∃ (p : Fin 512) (q : Fin 256), y = ix2 p q := ⟨y 0, y 1, eq_ix2 y⟩
  show out0_7 (iblk m c 0 t) (iblk m c 1 t) (iblk m c 2 t) (iblk m c 3 t) (iblk m c 4 t) (iblk m c 5 t) (ix2 p q) = cellArr m c (((cfg0.win 7).blk t).view.emb (ix2 p q))
  rw [out_emb7 t p q]
  refine (cell_stored (iblk m c 0 t) (iblk m c 1 t) (iblk m c 2 t) (iblk m c 3 t) (iblk m c 4 t) (iblk m c 5 t) (ix2 p q)).trans ?_
  exact cell_block_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 3 t) (iblk m c 4 t) (iblk m c 5 t) (iblk m c 2 t)
    (win0_6.index t (0 : Fin 2)) (win0_6.index t (1 : Fin 2)) (bt_lt t) (ht_lt t)
    (read_x m c t) (read_hx m c t) (read_Wx m c t) (read_Wh m c t) (read_bias m c t) (read_cx m c t) p q

/-- Point `t` writes back its block of the new hidden state. -/
theorem flushed6_eq (c : Dev nD) (t : Fin cfg0.N) :
    (dats m 0 c).flushed 6 t = ((cfg0.win 6).blk t).view.read (Elt Ideal) (hiddenArr m c) := by
  rw [Value.flushed6]
  refine funext fun (y : S512x256.Idx) => ?_
  obtain ⟨p, q, rfl⟩ : ∃ (p : Fin 512) (q : Fin 256), y = ix2 p q := ⟨y 0, y 1, eq_ix2 y⟩
  show out0_6 (iblk m c 0 t) (iblk m c 1 t) (iblk m c 2 t) (iblk m c 3 t) (iblk m c 4 t) (iblk m c 5 t) (ix2 p q) = hiddenArr m c (((cfg0.win 6).blk t).view.emb (ix2 p q))
  rw [out_emb6 t p q]
  refine (hidden_stored (iblk m c 0 t) (iblk m c 1 t) (iblk m c 2 t) (iblk m c 3 t) (iblk m c 4 t) (iblk m c 5 t) (ix2 p q)).trans ?_
  exact hidden_block_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 3 t) (iblk m c 4 t) (iblk m c 5 t) (iblk m c 2 t)
    (win0_6.index t (0 : Fin 2)) (win0_6.index t (1 : Fin 2)) (bt_lt t) (ht_lt t)
    (read_x m c t) (read_hx m c t) (read_Wx m c t) (read_Wh m c t) (read_bias m c t) (read_cx m c t) p q

/-! ## The 64 blocks tile the arrays -/

theorem mem_blk6 (t : Fin cfg0.N) (i : S4096x2048.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v11_0).slice (win0_6.rect t)).set ↔ _
  rw [View.set_slice_whole, Rect.mem_set_unit]
  exact Iff.rfl

theorem mem_blk7 (t : Fin cfg0.N) (i : S4096x2048.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v11_1).slice (win0_7.rect t)).set ↔ _
  rw [View.set_slice_whole, Rect.mem_set_unit]
  exact Iff.rfl

/-- Entry (b, h) is in the block of the point with tiles (b / 512, h / 256). -/
theorem cover6 (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

theorem cover7 (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  obtain ⟨-, -, -, -, -, -, -, -, -, -, -, -, -, a0, a1, -⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-! ## The arrays after the run -/

theorem final6 (c : Dev nD) : (dats m 0 c).arrAt 6 cfg0.N = hiddenArr m c :=
  (dats m 0 c).arrAt_eq_of_cover 6 (hiddenArr m c) (fun t _ => flushed6_eq m c t) cover6

theorem final7 (c : Dev nD) : (dats m 0 c).arrAt 7 cfg0.N = cellArr m c :=
  (dats m 0 c).arrAt_eq_of_cover 7 (cellArr m c) (fun t _ => flushed7_eq m c t) cover7

/-- Every weakly fair execution of the kernel's program ends with the two results at the specification's arrays of
    the launched arguments, and the arguments unchanged. -/
theorem run : θ_run defs (onTc (τ := τ) (main (F := Ideal))) ⟨m, fun _ => 0, ρ⟩ fun r => ∀ c : Dev nD,
      r.2.mem ((c : Thread nD τ).loc main_v11_0) = hiddenArr m c
      ∧ r.2.mem ((c : Thread nD τ).loc main_v11_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.KernelValue

end
-- ==== Proof.lean ====
/-
  An LSTM cell — gates = x · Wxᵀ + bx + hx · Whᵀ + bh, split into input, forget, cell and output gates,
  cy = σ(f) · cx + σ(i) · tanh(g), hy = σ(o) · tanh(cy) — computed tile by tile by a kernel and whole by a reference,
  agree entry by entry over the extended reals.

  Both programs form, for batch row b, hidden unit h and gate g, the same four terms: the row products
  x[b, :] · Wx[g · 2048 + h, :] and hx[b, :] · Wh[g · 2048 + h, :] (each an exact sum over the 2048 features, whatever
  float format the operands were cast to and however the rows were tiled) and the biases bx[g · 2048 + h] and
  bh[g · 2048 + h].  The kernel adds the products, adds the biases (ahead of the launch, re-laid tile by tile), and
  adds the two sums; the reference adds product, bias, product, bias from left to right.  Addition of extended reals
  is commutative and associative at every value, infinities included, so the pre-activations agree without any
  finiteness assumption.  The kernel's logistic function and the reference's 1 / (1 + exp (-·)) are one function, the
  two tanh are one function, and the combination is the same expression.  The kernel's 8 × 8 grid of 512 × 256 blocks
  tiles the 4096 × 2048 results.

  The modules: `Spec` (the cell as one function of the seven arguments, and the regrouping of the four terms),
  `RefValue` (the reference's two results are that function), `KernelBlock` (one grid point's two stored blocks,
  entry by entry), `HostPrefix` (the arrays the windows read, from the arguments), `KernelValue` (what each point
  writes back is its block of that function; the blocks cover the arrays; the run).  The frames are the generated
  ones; the idealization rewrote nothing, so there is nothing to preserve.
-/
import proofs.«145008_j2250562863750_2_alg».proof.Defs
import proofs.«145008_j2250562863750_2_alg».proof.Proof.Gen.Kernel
import proofs.«145008_j2250562863750_2_alg».proof.Proof.Gen.Kernel.Skeleton
import proofs.«145008_j2250562863750_2_alg».proof.Proof.Gen.Kernel.Launch
import proofs.«145008_j2250562863750_2_alg».proof.Proof.Gen.Kernel.Points
import proofs.«145008_j2250562863750_2_alg».proof.Proof.Gen.Kernel.Frame
import proofs.«145008_j2250562863750_2_alg».proof.Proof.Gen.KernelIdeal
import proofs.«145008_j2250562863750_2_alg».proof.Proof.Gen.KernelIdeal.Skeleton
import proofs.«145008_j2250562863750_2_alg».proof.Proof.Gen.KernelIdeal.Launch
import proofs.«145008_j2250562863750_2_alg».proof.Proof.Gen.KernelIdeal.Points
import proofs.«145008_j2250562863750_2_alg».proof.Proof.Gen.KernelIdeal.Frame
import proofs.«145008_j2250562863750_2_alg».proof.Proof.Gen.KernelIdeal.Value
import proofs.«145008_j2250562863750_2_alg».proof.Proof.Gen.ReferenceIdeal
import proofs.«145008_j2250562863750_2_alg».proof.Proof.Gen.ReferenceIdeal.Run
import proofs.«145008_j2250562863750_2_alg».proof.Proof.Gen.ReferenceIdeal.Read
import proofs.«145008_j2250562863750_2_alg».proof.Proof.Gen.Pre_finite_inputs
import proofs.«145008_j2250562863750_2_alg».proof.Proof.Spec
import proofs.«145008_j2250562863750_2_alg».proof.Proof.RefValue
import proofs.«145008_j2250562863750_2_alg».proof.Proof.KernelBlock
import proofs.«145008_j2250562863750_2_alg».proof.Proof.HostPrefix
import proofs.«145008_j2250562863750_2_alg».proof.Proof.KernelValue
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's program runs and leaves its arguments as launched: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the seven arguments both programs end with the specification's new hidden state and
    new cell state of those arguments. -/
theorem algebraic : Cert.algebraic_KernelIdeal_ReferenceIdeal := by
  intro m ρ m' ρ' _ hagree
  refine ⟨fun c => Cert.KernelIdeal.KernelValue.hiddenArr m c, fun c => Cert.KernelIdeal.KernelValue.cellArr m c,
    Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6⟩ := hagree c
    refine (h c).1.trans ((Cert.ReferenceIdeal.Read.val_main_v36_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_)
    rw [Cert.ReferenceIdeal.RefValue.hidden_eq, a0, a1, a2, a3, a4, a5, a6]
    rfl
  · obtain ⟨a0, a1, a2, a3, a4, a5, a6⟩ := hagree c
    refine (h c).2.1.trans ((Cert.ReferenceIdeal.Read.val_main_v34_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_)
    rw [Cert.ReferenceIdeal.RefValue.cell_eq, a0, a1, a2, a3, a4, a5, a6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
